-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096x2 : Shape := ⟨3, ![2048, 4096, 2]⟩
abbrev S4096x4096 : Shape := ⟨2, ![4096, 4096]⟩
abbrev S4096 : Shape := ⟨1, ![4096]⟩
abbrev S_ : Shape := ⟨0, ![]⟩

class Facts : Prop where
  bcast_S_S2048x4096x2 : S_.BroadcastsInDim S2048x4096x2 (![] : Fin 0 → Fin S2048x4096x2.rank)
  reducesTo_S2048x4096x2_S_d0_1_2 : S2048x4096x2.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2048x4096x2 .f32) (main_arg1 : FVec F S4096x4096 .f32) (main_arg2 : FVec F S4096 .f32) : IVec S_ 1 :=
  let main_v0 : FVec F S2048x4096x2 .f32 := Host.absf main_arg0
  let main_cst : FVec F S_ .f32 := constant S_ .f32 0x7F800000#32
  let main_v1 : FVec F S2048x4096x2 .f32 := broadcastInDim S2048x4096x2 ![] bcast_S_S2048x4096x2 main_cst
  let main_v2 : IVec S2048x4096x2 1 := cmpf .olt main_v0 main_v1
  let main_c : IVec S_ 1 := constantI S_ 1 1#1
  let main_v3 : IVec S_ 1 := (fun x v => Host.reduce IntOp.andi x v reducesTo_S2048x4096x2_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2048x4096x2 : Shape := ⟨3, ![2048, 4096, 2]⟩
abbrev S4096x4096 : Shape := ⟨2, ![4096, 4096]⟩
abbrev S4096 : Shape := ⟨1, ![4096]⟩
abbrev S2048x4096x1 : Shape := ⟨3, ![2048, 4096, 1]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x4096 : Shape := ⟨2, ![1, 4096]⟩
abbrev S256x4096 : Shape := ⟨2, ![256, 4096]⟩
abbrev S256x1 : Shape := ⟨2, ![256, 1]⟩
abbrev S1024x4096 : Shape := ⟨2, ![1024, 4096]⟩
abbrev S1x1024 : Shape := ⟨2, ![1, 1024]⟩
abbrev S256x1024 : Shape := ⟨2, ![256, 1024]⟩
abbrev S256 : Shape := ⟨1, ![256]⟩

abbrev nBuf : Space → Nat
  | .hbm => 20
  | .vmem => 12
  | .smem => 0
  | _ => 0

abbrev bufTy : (tb : Table) → Fin (tcTables nBuf tb) → BufTy
  | .hbm, ⟨0, _⟩ => ⟨S2048x4096x2, .f32⟩
  | .hbm, ⟨1, _⟩ => ⟨S4096x4096, .f32⟩
  | .hbm, ⟨2, _⟩ => ⟨S4096, .f32⟩
  | .hbm, ⟨3, _⟩ => ⟨S2048x4096x1, .f32⟩
  | .hbm, ⟨4, _⟩ => ⟨S2048x4096, .f32⟩
  | .hbm, ⟨5, _⟩ => ⟨S2048x4096x1, .f32⟩
  | .hbm, ⟨6, _⟩ => ⟨S2048x4096, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S4096x4096, .bf16⟩
  | .hbm, ⟨14, _⟩ => ⟨S1x4096, .f32⟩
  | .hbm, ⟨15, _⟩ => ⟨S2048x4096, .f32⟩
  | .hbm, ⟨16, _⟩ => ⟨S2048x4096, .f32⟩
  | .hbm, ⟨17, _⟩ => ⟨S2048x4096x1, .f32⟩
  | .hbm, ⟨18, _⟩ => ⟨S2048x4096x1, .f32⟩
  | .hbm, ⟨19, _⟩ => ⟨S2048x4096x2, .f32⟩
  | .local _ .vmem, ⟨0, _⟩ => ⟨S256x4096, .f32⟩
  | .local _ .vmem, ⟨1, _⟩ => ⟨S256x4096, .f32⟩
  | .local _ .vmem, ⟨2, _⟩ => ⟨S256x1, .f32⟩
  | .local _ .vmem, ⟨3, _⟩ => ⟨S256x1, .f32⟩
  | .local _ .vmem, ⟨4, _⟩ => ⟨S1024x4096, .bf16⟩
  | .local _ .vmem, ⟨5, _⟩ => ⟨S1024x4096, .bf16⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S2048x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S2048x4096x2_S2048x4096x1_0_0_0 : S2048x4096x2.Slices ![0, 0, 0] S2048x4096x1
  shapeCasts_S2048x4096x1_S2048x4096 : S2048x4096x1.ShapeCasts S2048x4096
  slices_S2048x4096x2_S2048x4096x1_0_0_1 : S2048x4096x2.Slices ![0, 0, 1] S2048x4096x1
  reducesTo_S2048x4096_S2048_d1 : S2048x4096.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bitsLt_bf16_f32 : FTy.bits .bf16 < FTy.bits .f32
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  reduces_S256x4096_S256 : S256x4096.Reduces [1] S256
  inb_S256x1_S256x1_0_0 : ∀ a, (![0, 0] : Fin 2 → Nat) a + S256x1.size a ≤ S256x1.size a
  h_S256x1 : 0 < S256x1.numel
  shapeCasts_S256x1_S256 : S256x1.ShapeCasts S256
  shapeCasts_S256_S256x1 : S256.ShapeCasts S256x1
  shapeCasts_S256x1_S256x1 : S256x1.ShapeCasts S256x1
  broadcasts_S256x1_S256x1024 : S256x1.Broadcasts S256x1024
  bcast_S2048x4096_S2048x4096x1_0_1 : S2048x4096.BroadcastsInDim S2048x4096x1 (![0, 1] : Fin 2 → Fin S2048x4096x1.rank)
  concatenates_S2048x4096x1_S2048x4096x1_S2048x4096x2_d2 : Shape.Concatenates [S2048x4096x1, S2048x4096x1] S2048x4096x2 2
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S2048x4096.size a
  hwx0_0 : ∀ i : grid0.Coords, EltTy.bits .f32 = 32 ∨ (Rect.block (s := S2048x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S2048x1.size a
  hwx0_1 : ∀ i : grid0.Coords, EltTy.bits .f32 = 32 ∨ (Rect.block (s := S2048x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S4096x4096.size a
  hwx0_2 : ∀ i : grid0.Coords, EltTy.bits .bf16 = 32 ∨ (Rect.block (s := S4096x4096) S1024x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S2048x4096.size a
  hwx0_4 : ∀ i : grid0.Coords, EltTy.bits .f32 = 32 ∨ (Rect.block (s := S2048x4096) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S2048x4096.size a
  hwx0_5 : ∀ i : grid0.Coords, EltTy.bits .f32 = 32 ∨ (Rect.block (s := S2048x4096) S256x1024.size (cc0_transform_5 i) (hinb0_5 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_v1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x4096x2 : Shape := ⟨3, ![2048, 4096, 2]⟩
abbrev S4096x4096 : Shape := ⟨2, ![4096, 4096]⟩
abbrev S4096 : Shape := ⟨1, ![4096]⟩
abbrev S2048x4096x1 : Shape := ⟨3, ![2048, 4096, 1]⟩
abbrev S2048x4096 : Shape := ⟨2, ![2048, 4096]⟩
abbrev S1x4096 : Shape := ⟨2, ![1, 4096]⟩
abbrev S_ : Shape := ⟨0, ![]⟩
abbrev S2048 : Shape := ⟨1, ![2048]⟩
abbrev S2048x1 : Shape := ⟨2, ![2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S2048x4096x2, .f32⟩
  | .hbm, ⟨1, _⟩ => ⟨S4096x4096, .f32⟩
  | .hbm, ⟨2, _⟩ => ⟨S4096, .f32⟩
  | .hbm, ⟨3, _⟩ => ⟨S2048x4096x1, .f32⟩
  | .hbm, ⟨4, _⟩ => ⟨S2048x4096, .f32⟩
  | .hbm, ⟨5, _⟩ => ⟨S2048x4096x1, .f32⟩
  | .hbm, ⟨6, _⟩ => ⟨S2048x4096, .f32⟩
  | .hbm, ⟨7, _⟩ => ⟨S2048x4096, .f32⟩
  | .hbm, ⟨8, _⟩ => ⟨S1x4096, .f32⟩
  | .hbm, ⟨9, _⟩ => ⟨S2048x4096, .f32⟩
  | .hbm, ⟨10, _⟩ => ⟨S2048x4096, .f32⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048, .f32⟩
  | .hbm, ⟨16, _⟩ => ⟨S_, .f32⟩
  | .hbm, ⟨17, _⟩ => ⟨S2048, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S2048x1, .f32⟩
  | .hbm, ⟨29, _⟩ => ⟨S2048x4096, .f32⟩
  | .hbm, ⟨30, _⟩ => ⟨S2048x4096x1, .f32⟩
  | .hbm, ⟨31, _⟩ => ⟨S2048x4096x1, .f32⟩
  | .hbm, ⟨32, _⟩ => ⟨S2048x4096x2, .f32⟩
  | _, _ => ⟨S2048x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_cst : Ref sig .tc := ⟨.hbm, 11, rfl⟩
abbrev main_call0_v0 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  slices_S2048x4096x2_S2048x4096x1_0_0_0 : S2048x4096x2.Slices ![0, 0, 0] S2048x4096x1
  shapeCasts_S2048x4096x1_S2048x4096 : S2048x4096x1.ShapeCasts S2048x4096
  slices_S2048x4096x2_S2048x4096x1_0_0_1 : S2048x4096x2.Slices ![0, 0, 1] S2048x4096x1
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  bcast_S_S2048x4096 : S_.BroadcastsInDim S2048x4096 (![] : Fin 0 → Fin S2048x4096.rank)
  reducesTo_S2048x4096_S2048_d1 : S2048x4096.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x4096_0_1 : S2048x1.BroadcastsInDim S2048x4096 (![0, 1] : Fin 2 → Fin S2048x4096.rank)
  bcast_S2048x4096_S2048x4096x1_0_1 : S2048x4096.BroadcastsInDim S2048x4096x1 (![0, 1] : Fin 2 → Fin S2048x4096x1.rank)
  concatenates_S2048x4096x1_S2048x4096x1_S2048x4096x2_d2 : Shape.Concatenates [S2048x4096x1, S2048x4096x1] S2048x4096x2 2
  dot_S2048x4096_S4096x4096_S2048x4096_1_1_0_0_n_n_wf : DotDims.WF S2048x4096 S4096x4096 S2048x4096 [1] [1] [0] [0] [] []

variable [Facts₀]

def dot_S2048x4096_S4096x4096_S2048x4096_1_1_0_0_n_n : DotDims S2048x4096 S4096x4096 S2048x4096 where
  lhsContracting := [1]
  rhsContracting := [1]
  lhsNonContracting := [0]
  rhsNonContracting := [0]
  lhsBatch := []
  rhsBatch := []
  wf := dot_S2048x4096_S4096x4096_S2048x4096_1_1_0_0_n_n_wf

class Facts : Prop extends Facts₀ where

variable [Facts]
-- ==== Proof.Spec.lean ====
/-
  What the two result channels are, as functions of the three argument arrays, entry by entry, on the extended reals.

  The input `x` is a `[2048, 4096, 2]` array: per row `r` two channels of 4096 features, channel 0 the activator and
  channel 1 the carry. `W` is a `[4096, 4096]` weight matrix (output feature by input feature) and `b` a bias per
  output feature.
  • The activator result at `(r, n)` is the rectified affine map of row `r`'s activator channel:
    `max (∑ₖ x[r, k, 0] · W[n, k] + b[n]) 0`.
  • The carry result at `(r, n)` does not depend on `n`: it is half the sum of the two channel means of row `r`,
    `½ · ((∑ₖ x[r, k, 0]) / 4096 + (∑ₖ x[r, k, 1]) / 4096)`.
  The three float words (zero, one half, 4096) are kept as words: both programs spell the same words, so their values
  are never needed — except that the zero word is the real `0`, the neutral element a host sum starts from.
-/
import Idealize.ShloMosaic.PureOps.Ideal
import Idealize.ShloMosaic.Lib.ValueIdx

noncomputable section

namespace Cert.Spec

open Idealize.ShloMosaic Idealize.ShloMosaic.ValueIdx

/-- The input array: rows × features × the two channels. -/
abbrev XArr : Type := (⟨3, ![2048, 4096, 2]⟩ : Shape).Idx → EReal
/-- The weight matrix: output features × input features. -/
abbrev WArr : Type := (⟨2, ![4096, 4096]⟩ : Shape).Idx → EReal
/-- The bias: one entry per output feature. -/
abbrev BArr : Type := (⟨1, ![4096]⟩ : Shape).Idx → EReal
/-- One result channel: rows × output features. -/
abbrev Chan : Type := (⟨2, ![2048, 4096]⟩ : Shape).Idx → EReal

/-- The word of `0.0`. -/
abbrev zeroW : EReal := Ideal.ofBits .f32 0x00000000#32
/-- The word of `0.5`. -/
abbrev halfW : EReal := Ideal.ofBits .f32 0x3F000000#32
/-- The word of `4096.0`, the number of features a mean divides by. -/
abbrev widthW : EReal := Ideal.ofBits .f32 0x45800000#32

/-- The activator result at row `r`, output feature `n`: the rectified affine map of the row's activator channel. -/
def act (x : XArr) (W : WArr) (b : BArr) (r : Fin 2048) (n : Fin 4096) : EReal :=
  max ((∑ k : Fin 4096, x (ix3 r k (0 : Fin 2)) * W (ix2 n k)) + b (ix1 n)) zeroW

/-- The mean over the features of channel `ch` of row `r`. -/
def chanMean (x : XArr) (ch : Fin 2) (r : Fin 2048) : EReal :=
  Ideal.div (∑ k : Fin 4096, x (ix3 r k ch)) widthW

/-- The carry result of row `r` (the same at every output feature): half the sum of the two channel means. -/
def carry (x : XArr) (r : Fin 2048) : EReal :=
  halfW * (chanMean x 0 r + chanMean x 1 r)

/-- The activator channel of the result, as an array. -/
def actArr (x : XArr) (W : WArr) (b : BArr) : Chan := fun i => act x W b (i 0) (i 1)

/-- The carry channel of the result, as an array: constant along each row. -/
def carryArr (x : XArr) : Chan := fun i => carry x (i 0)

end Cert.Spec

end
-- ==== Proof.RefStages.lean ====
/-
  The reference's result is the stack of the two specified channels.

  The reference takes channel 0 and channel 1 of the input as two matrices (a slice along the last axis, then the unit
  axis dropped), forms `relu (act · Wᵀ + b)` for the first result channel and, for the second, half the sum of the two
  channel means, repeated along the output features. Read entry by entry these are `Cert.Spec.act` and `Cert.Spec.carry`:
  the sums range over the same 4096 features in the same order; the one thing to use is that a host sum starts from the
  zero word, which is the real `0`.
-/
import proofs.«112856_j19902878450221_2_alg».proof.Proof.Gen.ReferenceIdeal.Read
import proofs.«112856_j19902878450221_2_alg».proof.Proof.Spec

noncomputable section

namespace Cert.ReferenceIdeal.Stages

open Idealize.ShloMosaic Idealize.ShloMosaic.ValueIdx Cert.ReferenceIdeal Cert.ReferenceIdeal.Gen Cert.ReferenceIdeal.Read Cert.Spec

/-- The activator matrix (channel 0 of the input with the unit axis dropped): its entry `(r, k)` is `x[r, k, 0]`. -/
theorem activator_apply (x : XArr) (r : Fin 2048) (k : Fin 4096) :
    val_main_v1 (F := Ideal) x (ix2 r k) = x (ix3 r k (0 : Fin 2)) := by
  rw [val_main_v1_apply, val_main_v0_apply]
  refine congrArg x (funext fun a => Fin.ext ?_)
  match a with
  | ⟨0, _⟩ => show (r.val * 4096 + k.val) / 4096 = r.val; have := k.isLt; omega
  | ⟨1, _⟩ => show (r.val * 4096 + k.val) / 1 % 4096 = k.val; have := k.isLt; omega
  | ⟨2, _⟩ => rfl

/-- The carry matrix (channel 1 of the input with the unit axis dropped): its entry `(r, k)` is `x[r, k, 1]`. -/
theorem carrier_apply (x : XArr) (r : Fin 2048) (k : Fin 4096) :
    val_main_v3 (F := Ideal) x (ix2 r k) = x (ix3 r k (1 : Fin 2)) := by
  rw [val_main_v3_apply, val_main_v2_apply]
  refine congrArg x (funext fun a => Fin.ext ?_)
  match a with
  | ⟨0, _⟩ => show (r.val * 4096 + k.val) / 4096 = r.val; have := k.isLt; omega
  | ⟨1, _⟩ => show (r.val * 4096 + k.val) / 1 % 4096 = k.val; have := k.isLt; omega
  | ⟨2, _⟩ => rfl

/-- The rectified affine stage at `(r, n)` is the specified activator result. -/
theorem relu_stage_apply (x : XArr) (W : WArr) (b : BArr) (r : Fin 2048) (n : Fin 4096) :
    val_main_v8 (F := Ideal) x W b (ix2 r n) = act x W b r n := by
  rw [val_main_v8_apply, val_main_v7_apply, val_main_v4_apply, val_main_v6_apply, val_main_v5_apply,
    val_main_call0_v0_apply, val_main_call0_cst_apply]
  have el : ∀ k : Fin 4096, lidx_main_v4 (ix2 r n) k = ix2 r k := fun k => funext fun a => Fin.ext (by
    match a with
    | ⟨0, _⟩ => rfl
    | ⟨1, _⟩ => rfl)
  have er : ∀ k : Fin 4096, ridx_main_v4 (ix2 r n) k = ix2 n k := fun k => funext fun a => Fin.ext (by
    match a with
    | ⟨0, _⟩ => rfl
    | ⟨1, _⟩ => rfl)
  have eb : idx_main_v5 (idx_main_v6 (ix2 r n)) = ix1 n := funext fun a => Fin.ext (by
    match a with
    | ⟨0, _⟩ => rfl)
  simp only [el, er, eb, activator_apply]
  rfl

/-- The first result channel before the channels are stacked: the specified activator array. -/
theorem relu_stage_eq (x : XArr) (W : WArr) (b : BArr) : val_main_v8 (F := Ideal) x W b = actArr x W b := by
  funext i
  obtain ⟨r, n, rfl⟩ : ∃ (r : Fin 2048) (n : Fin 4096), i = ix2 r n := ⟨i 0, i 1, eq_ix2 i⟩
  exact relu_stage_apply x W b r n

/-- The host sum of row `r` of the carry matrix, started from the zero word, is the plain sum `∑ₖ x[r, k, 1]`. -/
theorem carrier_row_sum (x : XArr) (r : Fin 2048) :
    val_main_v12 (F := Ideal) x (ix1 r) = ∑ k : Fin 4096, x (ix3 r k (1 : Fin 2)) := by
  rw [val_main_v12_apply, val_main_cst_1_apply]
  have e1 : ∀ k : Fin 4096, idx_main_v12 (ix1 r) k = ix2 r k := fun k => funext fun a => Fin.ext (by
    match a with
    | ⟨0, _⟩ => rfl
    | ⟨1, _⟩ => rfl)
  simp only [e1, carrier_apply, Ideal.ofBits_def, Ideal.ofBits_zero_f32, zero_add]

/-- The broadcast stage at `(r, n)` is the specified carry result of row `r`: each channel mean is the host sum from the
    zero word divided by the 4096 word, and the zero word is `0`. -/
theorem carry_stage_apply (x : XArr) (r : Fin 2048) (n : Fin 4096) :
    val_main_v19 (F := Ideal) x (ix2 r n) = carry x r := by
  have eI : idx_main_v18 (idx_main_v19 (ix2 r n)) = ix1 r := funext fun a => Fin.ext (by
    match a with
    | ⟨0, _⟩ => rfl)
  rw [val_main_v19_apply, val_main_v18_apply, eI, val_main_v17_apply, val_main_v16_apply, val_main_cst_3_apply,
    val_main_v15_apply, val_main_v11_apply, val_main_v14_apply, val_main_v9_apply, val_main_v12_apply,
    val_main_v10_apply, val_main_v13_apply, val_main_cst_0_apply, val_main_cst_2_apply, val_main_cst_apply,
    val_main_cst_1_apply]
  have e0 : ∀ k : Fin 4096, idx_main_v9 (ix1 r) k = ix2 r k := fun k => funext fun a => Fin.ext (by
    match a with
    | ⟨0, _⟩ => rfl
    | ⟨1, _⟩ => rfl)
  have e1 : ∀ k : Fin 4096, idx_main_v12 (ix1 r) k = ix2 r k := fun k => funext fun a => Fin.ext (by
    match a with
    | ⟨0, _⟩ => rfl
    | ⟨1, _⟩ => rfl)
  simp only [e0, e1, activator_apply, carrier_apply, Ideal.ofBits_def, Ideal.ofBits_zero_f32, zero_add]
  rfl

/-- The second result channel before the channels are stacked: the specified carry array. -/
theorem carry_stage_eq (x : XArr) : val_main_v19 (F := Ideal) x = carryArr x := by
  funext i
  obtain ⟨r, n, rfl⟩ : ∃ (r : Fin 2048) (n : Fin 4096), i = ix2 r n := ⟨i 0, i 1, eq_ix2 i⟩
  exact carry_stage_apply x r n

/-! ## The stacked result -/

/-- The two result channels stacked along a new last axis: entry `(r, n, 0)` is the first channel's `(r, n)`, entry
    `(r, n, 1)` the second's. Both programs end with these same three operations (a unit axis added to each channel,
    then the two joined along it), so the stacking is carried as one function and never opened. -/
def stack (a b : Chan) : XArr :=
  concatenate S2048x4096x2 2
    [⟨S2048x4096x1, broadcastInDim S2048x4096x1 ![0, 1] bcast_S2048x4096_S2048x4096x1_0_1 a⟩,
     ⟨S2048x4096x1, broadcastInDim S2048x4096x1 ![0, 1] bcast_S2048x4096_S2048x4096x1_0_1 b⟩]
    concatenates_S2048x4096x1_S2048x4096x1_S2048x4096x2_d2

/-- The reference's result is the stack of the two specified channels. -/
theorem result_eq (x : XArr) (W : WArr) (b : BArr) :
    val_main_v22 (F := Ideal) x W b = stack (actArr x W b) (carryArr x) := by
  unfold val_main_v22 val_main_v20 val_main_v21
  rw [relu_stage_eq, carry_stage_eq]
  rfl

end Cert.ReferenceIdeal.Stages

end
-- ==== Proof.Entry.lean ====
/-
  What the kernel's four input windows find in their arrays when the region is entered.

  Before the region the host takes the two channels of the input apart, reduces the carry channel to its per-row mean
  (kept as a column), rounds the weights to bf16 (the identity on the extended reals) and lays the bias out as a row.
  So, entry by entry:
  • the activator array at `(r, k)` is `x[r, k, 0]`;
  • the carry-mean column at `(r, 0)` is the mean `(∑ₖ x[r, k, 1]) / 4096`;
  • the weight array at `(n, k)` is `W[n, k]`;
  • the bias row at `(0, n)` is `b[n]`.
  The first two are the very operations the reference applies to the same input, so they are read through the same
  entry-by-entry facts.
-/
import proofs.«112856_j19902878450221_2_alg».proof.Proof.Gen.KernelIdeal.Frame
import proofs.«112856_j19902878450221_2_alg».proof.Proof.RefStages
import Idealize.ShloMosaic.Lib.StableHlo.Run
import Idealize.ShloMosaic.Lib.ValueLayout

noncomputable section

namespace Cert.KernelIdeal.Entry

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ)

/-- The activator array on entry: channel 0 of the input with the unit axis dropped. -/
theorem activator_eq (c : Dev nD) :
    V m c main_v1 = Cert.ReferenceIdeal.Read.val_main_v1 (F := Ideal) (m ((c : Thread nD τ).loc main_arg0)) := by
  show StableHlo.after hostOps0 (fun b => m (c, b)) (Proc.devRef .tc main_v1) = _
  after_results <;> rfl

/-- The carry-mean column on entry: the host sum of each row of channel 1, kept as a column, over the 4096 word. -/
theorem carrymean_eq (c : Dev nD) :
    V m c main_v7 = Host.divf (F := Ideal)
      (broadcastInDim S2048x1 ![0] bcast_S2048_S2048x1_0
        (Cert.ReferenceIdeal.Read.val_main_v12 (F := Ideal) (m ((c : Thread nD τ).loc main_arg0))))
      (broadcastInDim S2048x1 ![] bcast_S_S2048x1 (constant (F := Ideal) S_ .f32 0x45800000#32)) := by
  show StableHlo.after hostOps0 (fun b => m (c, b)) (Proc.devRef .tc main_v7) = _
  after_results <;> rfl

/-- The weight array on entry: the weights rounded to bf16, which changes nothing here. -/
theorem weights_eq (c : Dev nD) :
    V m c main_v8 = truncf (F := Ideal) .bf16 (m ((c : Thread nD τ).loc main_arg1)) bitsLt_bf16_f32 := by
  show StableHlo.after hostOps0 (fun b => m (c, b)) (Proc.devRef .tc main_v8) = _
  after_results <;> rfl

/-- The bias row on entry: the bias vector with a leading unit axis. -/
theorem bias_eq (c : Dev nD) :
    V m c main_v9 = shapeCast S1x4096 (m ((c : Thread nD τ).loc main_arg2)) shapeCasts_S4096_S1x4096 := by
  show StableHlo.after hostOps0 (fun b => m (c, b)) (Proc.devRef .tc main_v9) = _
  after_results <;> rfl

/-- The activator array at an index with coordinates `(r, k)` is `x[r, k, 0]`. -/
theorem activator_at (c : Dev nD) (i : S2048x4096.Idx) (r : Fin 2048) (k : Fin 4096)
    (h0 : (i 0).val = r.val) (h1 : (i 1).val = k.val) :
    V m c main_v1 i = m ((c : Thread nD τ).loc main_arg0) (ix3 r k (0 : Fin 2)) := by
  have hi : i = ix2 r k := funext fun a => Fin.ext (by
    match a with
    | ⟨0, _⟩ => exact h0
    | ⟨1, _⟩ => exact h1)
  subst hi
  exact (congrFun (activator_eq m c) _).trans (Cert.ReferenceIdeal.Stages.activator_apply _ r k)

/-- The carry-mean column at an index of row `r` is the mean of channel 1 of row `r`. -/
theorem carrymean_at (c : Dev nD) (i : S2048x1.Idx) (r : Fin 2048) (h0 : (i 0).val = r.val) :
    V m c main_v7 i = chanMean (m ((c : Thread nD τ).loc main_arg0)) 1 r := by
  have hi : i = ix2 r (0 : Fin 1) := funext fun a => Fin.ext (by
    match a with
    | ⟨0, _⟩ => exact h0
    | ⟨1, _⟩ => show (i 1).val = 0; have := idx2_lt1 i; omega)
  subst hi
  refine (congrFun (carrymean_eq m c) _).trans ?_
  show Ideal.div (broadcastInDim S2048x1 ![0] bcast_S2048_S2048x1_0
      (Cert.ReferenceIdeal.Read.val_main_v12 (F := Ideal) (m ((c : Thread nD τ).loc main_arg0))) (ix2 r (0 : Fin 1)))
    (broadcastInDim S2048x1 ![] bcast_S_S2048x1 (constant (F := Ideal) S_ .f32 0x45800000#32) (ix2 r (0 : Fin 1))) = _
  rw [broadcastInDim_apply _ bcast_S2048_S2048x1_0 _ (ix2 r (0 : Fin 1)) (ix1 r) (fun a => match a with
      | ⟨0, _⟩ => by show r.val = if (2048 : Nat) = 1 then 0 else r.val; rw [if_neg (by decide)]),
    broadcastInDim_apply _ bcast_S_S2048x1 _ (ix2 r (0 : Fin 1)) ix0 (fun a => a.elim0),
    Cert.ReferenceIdeal.Stages.carrier_row_sum]
  rfl

/-- The weight array at any index is the weight there. -/
theorem weights_at (c : Dev nD) (i : S4096x4096.Idx) :
    V m c main_v8 i = m ((c : Thread nD τ).loc main_arg1) i :=
  congrFun (weights_eq m c) i

/-- The bias row at an index of column `n` is `b[n]`. -/
theorem bias_at (c : Dev nD) (i : S1x4096.Idx) (n : Fin 4096) (h1 : (i 1).val = n.val) :
    V m c main_v9 i = m ((c : Thread nD τ).loc main_arg2) (ix1 n) := by
  have hi : i = ix2 (0 : Fin 1) n := funext fun a => Fin.ext (by
    match a with
    | ⟨0, _⟩ => show (i 0).val = 0; have := idx2_lt0 i; omega
    | ⟨1, _⟩ => exact h1)
  subst hi
  exact (congrFun (bias_eq m c) _).trans (shapeCast_a_1a_apply _ _ (0 : Fin 1) n)

end Cert.KernelIdeal.Entry

end
-- ==== Proof.LibColumnBroadcast.lean ====
/-
  One column broadcast over many: a general layout lemma, in the style of the library's row form. A `[a, 1]` array
  broadcast to `[a, b]` repeats its one column: the entry at `(p, c)` is the operand's entry at `(p, 0)`, whatever
  the column `c`. (What a row statistic kept with its unit axis — a row sum, a row maximum — needs when it meets a
  full tile.)
-/
import Idealize.ShloMosaic.Lib.Pipeline.Value
import Idealize.ShloMosaic.Lib.ValueIdx

namespace Cert.Layout

open Idealize.ShloMosaic Idealize.ShloMosaic.ValueIdx

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.LibUnitAxes.lean ====
/-
  Unit axes added and dropped: general layout lemmas, in the style of the library's leading-unit-axis forms.
  A block of a rank-4 array is `[1, 1, a, b]`; viewed as the matrix `[a, b]` its entry `(p, c)` is the block's
  entry `(0, 0, p, c)`. A vector `[a]` kept as a column `[a, 1]` has, at `(p, 0)`, the vector's entry `p`.
  Both are the same row-major position on the two sides.
-/
import Idealize.ShloMosaic.Lib.Pipeline.Value
import Idealize.ShloMosaic.Lib.ValueIdx

namespace Cert.Layout

open Idealize.ShloMosaic Idealize.ShloMosaic.ValueIdx

/-- A `[1, 1, a, b]` block viewed as the matrix `[a, b]` reads, at `(p, c)`, the block's entry `(0, 0, p, c)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (p : Fin a) (c : Fin b) :
    shapeCast ⟨2, ![a, b]⟩ x h (ix2 p c) = x (ix4 (0 : Fin 1) (0 : Fin 1) p c) := by
  refine shapeCast_apply x h (ix2 p c) (ix4 (0 : Fin 1) (0 : Fin 1) p c) ?_
  rw [Shape.rowMajor_val_four, Shape.rowMajor_val_two]
  show ((0 * 1 + 0) * a + p.val) * b + c.val = p.val * b + c.val
  simp

/-- A vector `[a]` kept as a column `[a, 1]` reads, at `(p, 0)`, the vector's entry `p`. -/
theorem shapeCast_a_a1_apply {α : Type} {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) := by
  refine shapeCast_apply x h (ix2 p (0 : Fin 1)) (ix1 p) ?_
  rw [Shape.rowMajor_val_one, Shape.rowMajor_val_two]
  show p.val = p.val * 1 + 0
  simp

end Cert.Layout
-- ==== Proof.LibColumnVector.lean ====
/-
  A column read as a vector: a general layout lemma, in the style of the library's unit-axis forms. A `[a, 1]`
  array viewed as the vector `[a]` has, at `p`, the array's entry `(p, 0)`: the two indices are the same row-major
  position. (What a per-row scalar kept as a column — a row mean with its unit axis — needs when it is used as a
  plain vector of rows.)
-/
import Idealize.ShloMosaic.Lib.Pipeline.Value
import Idealize.ShloMosaic.Lib.ValueIdx

namespace Cert.Layout

open Idealize.ShloMosaic Idealize.ShloMosaic.ValueIdx

/-- A column `[a, 1]` viewed as the vector `[a]` reads, at `p`, the column's entry `(p, 0)`. -/
theorem shapeCast_a1_a_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) := by
  refine shapeCast_apply x h (ix1 p) (ix2 p (0 : Fin 1)) ?_
  rw [Shape.rowMajor_val_two, Shape.rowMajor_val_one]
  show p.val * 1 + 0 = p.val
  simp

end Cert.Layout
-- ==== Proof.Tile.lean ====
/-
  The two tiles the kernel body stores, entry by entry, on the extended reals.

  The body loads a `256 × 4096` activator tile, a `1024 × 4096` weight tile, a `1 × 1024` bias tile and a `256 × 1` column
  of carry means. It stores
  • the rectified affine tile: at `(p, q)`, `max (∑ₖ a[p, k] · w[q, k] + bias[0, q]) 0` — the product contracts the
    feature axis of both tiles, accumulates into zero, and the rounding of the activator tile to bf16 is the identity;
  • the derived-scalar tile: at `(p, q)`, for every column `q`, `½ · ((∑ₖ a[p, k]) / 4096 + mean[p, 0])` — a row sum over
    the feature axis, the column of means read as a vector, the result kept as a column and repeated along the columns.
  Each layout step (an identity cast, a row or a column repeated, a unit axis added or dropped) is read at an index
  written by its coordinates.
-/
import proofs.«112856_j19902878450221_2_alg».proof.Proof.Gen.KernelIdeal.Skeleton
import proofs.«112856_j19902878450221_2_alg».proof.Proof.LibColumnBroadcast
import proofs.«112856_j19902878450221_2_alg».proof.Proof.LibUnitAxes
import proofs.«112856_j19902878450221_2_alg».proof.Proof.LibColumnVector
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen

/-! ## The matrix product of two tiles, entry by entry

The body contracts axis 1 of the activator tile `[256, 4096]` with axis 1 of the weight tile `[1024, 4096]`: the entry
`(p, q)` of the product is `∑ₖ a[p, k] · w[q, k]`, the accumulator being the zero splat. -/

theorem lhs_axis0 (i : S256x1024.Idx) (κ : dot_S256x4096_S1024x4096_S256x1024_1_1_0_0_n_n.contr.Idx) :
    (dot_S256x4096_S1024x4096_S256x1024_1_1_0_0_n_n.lhsIdx i κ 0).val = (i 0).val := by
  unfold DotDims.lhsIdx
  rw [dif_neg (show ¬(0 : Fin S256x4096.rank) ∈ dot_S256x4096_S1024x4096_S256x1024_1_1_0_0_n_n.lhsBatch by decide), dif_pos (show (0 : Fin S256x4096.rank) ∈ dot_S256x4096_S1024x4096_S256x1024_1_1_0_0_n_n.lhsNonContracting by decide)]
  rfl
theorem lhs_axis1 (i : S256x1024.Idx) (κ : dot_S256x4096_S1024x4096_S256x1024_1_1_0_0_n_n.contr.Idx) :
    (dot_S256x4096_S1024x4096_S256x1024_1_1_0_0_n_n.lhsIdx i κ 1).val = (κ ⟨0, by decide⟩).val :=
  dot_S256x4096_S1024x4096_S256x1024_1_1_0_0_n_n.lhsIdx_val_of_single rfl i κ
theorem rhs_axis0 (i : S256x1024.Idx) (κ : dot_S256x4096_S1024x4096_S256x1024_1_1_0_0_n_n.contr.Idx) :
    (dot_S256x4096_S1024x4096_S256x1024_1_1_0_0_n_n.rhsIdx i κ 0).val = (i 1).val := by
  unfold DotDims.rhsIdx
  rw [dif_neg (show ¬(0 : Fin S1024x4096.rank) ∈ dot_S256x4096_S1024x4096_S256x1024_1_1_0_0_n_n.rhsBatch by decide), dif_pos (show (0 : Fin S1024x4096.rank) ∈ dot_S256x4096_S1024x4096_S256x1024_1_1_0_0_n_n.rhsNonContracting by decide)]
  rfl
theorem rhs_axis1 (i : S256x1024.Idx) (κ : dot_S256x4096_S1024x4096_S256x1024_1_1_0_0_n_n.contr.Idx) :
    (dot_S256x4096_S1024x4096_S256x1024_1_1_0_0_n_n.rhsIdx i κ 1).val = (κ ⟨0, by decide⟩).val :=
  dot_S256x4096_S1024x4096_S256x1024_1_1_0_0_n_n.rhsIdx_val_of_single rfl i κ

/-- The product of an activator tile and a weight tile into the zero splat: at `(p, q)` the sum over the 4096 input
    features of `a[p, k] · w[q, k]`. -/
theorem matmul_tile (a : FVec Ideal S256x4096 .bf16) (w : FVec Ideal S1024x4096 .bf16) (p : Fin 256) (q : Fin 1024) :
    matmul dot_S256x4096_S1024x4096_S256x1024_1_1_0_0_n_n none a w (constant (F := Ideal) S256x1024 .f32 0x00000000#32) (ix2 p q)
      = ∑ k : Fin 4096, a (ix2 p k) * w (ix2 q k) := by
  simp only [matmul]
  rw [Ideal.matmul_constant_zero_apply, ← Equiv.sum_comp (ValueIdx.contrEquiv1 dot_S256x4096_S1024x4096_S256x1024_1_1_0_0_n_n 4096 rfl rfl).symm]
  refine Finset.sum_congr rfl fun k _ => ?_
  have hk := ValueIdx.contrEquiv1_symm_val dot_S256x4096_S1024x4096_S256x1024_1_1_0_0_n_n 4096 rfl rfl k
  have el : dot_S256x4096_S1024x4096_S256x1024_1_1_0_0_n_n.lhsIdx (ix2 p q) ((ValueIdx.contrEquiv1 dot_S256x4096_S1024x4096_S256x1024_1_1_0_0_n_n 4096 rfl rfl).symm k) = ix2 p k := funext fun ax => Fin.ext (by
    match ax with
    | ⟨0, _⟩ => exact lhs_axis0 _ _
    | ⟨1, _⟩ => exact (lhs_axis1 _ _).trans hk)
  have er : dot_S256x4096_S1024x4096_S256x1024_1_1_0_0_n_n.rhsIdx (ix2 p q) ((ValueIdx.contrEquiv1 dot_S256x4096_S1024x4096_S256x1024_1_1_0_0_n_n 4096 rfl rfl).symm k) = ix2 q k := funext fun ax => Fin.ext (by
    match ax with
    | ⟨0, _⟩ => exact rhs_axis0 _ _
    | ⟨1, _⟩ => exact (rhs_axis1 _ _).trans hk)
  rw [el, er]

/-! ## The row sum of a tile -/

/-- The sum of an activator tile over its feature axis: at row `p` the sum over the 4096 features of `v[p, k]`. -/
theorem row_sum (v : FVec Ideal S256x4096 .f32) (hφ : FKind.Formats .f32)
    (hacc : (0x00000000#32 : BitVec 32) = 0x00000000#32) (p : Fin 256) :
    multiReduction .add [1] S256 v 0x00000000#32 reduces_S256x4096_S256 hφ hacc (ix1 p) = ∑ k : Fin 4096, v (ix2 p k) := by
  refine (Ideal.multiReduction_add_single v _ reduces_S256x4096_S256 hφ hacc (ix1 p)).trans ?_
  exact Finset.sum_congr rfl fun k _ => congrArg v (funext fun ax => Fin.ext (by
    match ax with
    | ⟨0, _⟩ => rfl
    | ⟨1, _⟩ => rfl))

/-! ## The two stored values, entry by entry -/

/-- The first stored tile (the activator result): at `(p, q)` the rectified sum of the product entry and the bias
    tile's entry `q` — `max (∑ₖ x0[p, k] · x2[q, k] + x3[0, q]) 0`. Rounding to bf16 is the identity here. -/
theorem pay2_apply (x0 : Vec Ideal S256x4096 .f32) (x2 : Vec Ideal S1024x4096 .bf16) (x3 : Vec Ideal S1x1024 .f32)
    (p : Fin 256) (q : Fin 1024) :
    k0_pay2 x0 x2 x3 (ix2 p q)
      = max ((∑ k : Fin 4096, x0 (ix2 p k) * x2 (ix2 q k)) + x3 (ix2 (0 : Fin 1) q)) (Ideal.ofBits .f32 0x00000000#32) := by
  unfold k0_pay2 k0_pay1
  show max (matmul dot_S256x4096_S1024x4096_S256x1024_1_1_0_0_n_n none _ _ (constant (F := Ideal) S256x1024 .f32 0x00000000#32) (ix2 p q)
    + broadcastTo S256x1024 (shapeCast S1x1024 x3 shapeCasts_S1x1024_S1x1024) broadcasts_S1x1024_S256x1024 (ix2 p q)) (Ideal.ofBits .f32 0x00000000#32) = _
  rw [matmul_tile, broadcastTo_1b_ab_apply, shapeCast_self, shapeCast_self, shapeCast_self]
  rfl

/-- The second stored tile (the carry result): at `(p, q)`, whatever the column `q`, half the sum of the row mean of
    the activator tile and the carry mean the column tile holds — `½ · ((∑ₖ x0[p, k]) / 4096 + x1[p, 0])`. -/
theorem pay3_apply (x0 : Vec Ideal S256x4096 .f32) (x1 : Vec Ideal S256x1 .f32) (p : Fin 256) (q : Fin 1024) :
    k0_pay3 x0 x1 (ix2 p q)
      = Ideal.ofBits .f32 0x3F000000#32 * (Ideal.div (∑ k : Fin 4096, x0 (ix2 p k)) (Ideal.ofBits .f32 0x45800000#32) + x1 (ix2 p (0 : Fin 1))) := by
  unfold k0_pay3 k0_pay1
  refine (Cert.Layout.broadcastTo_a1_ab_apply _ _ p q).trans ?_
  rw [shapeCast_self]
  refine (Cert.Layout.shapeCast_a_a1_apply _ _ p).trans ?_
  show Ideal.ofBits .f32 0x3F000000#32 * (Ideal.div (multiReduction (F := Ideal) (φ := .f32) .add [1] S256 _ 0x00000000#32 reduces_S256x4096_S256 _ _ (ix1 p)) (Ideal.ofBits .f32 0x45800000#32)
    + shapeCast S256 x1 shapeCasts_S256x1_S256 (ix1 p)) = _
  rw [row_sum, Cert.Layout.shapeCast_a1_a_apply, shapeCast_self]

end Cert.KernelIdeal.Tile

end
-- ==== Proof.Blocks.lean ====
/-
  From blocks to arrays: after the region both output arrays hold the specified channels.

  The grid has 4 × 8 points; at the point with column-block `n` (outer) and row-block `m` (inner) the body reads rows
  `256 m … 256 m + 255` of the activator array and of the carry-mean column, rows `1024 n … 1024 n + 1023` of the weight
  array and columns `1024 n … 1024 n + 1023` of the bias row, and writes the `256 × 1024` tile at block `(m, n)` of each
  output array. The relations between the windows' block indices are decided once over the 32 points. A tile entry
  `(p, q)` is then the specified entry at row `256 m + p`, column `1024 n + q`; the tiles cover the `2048 × 4096` arrays, so
  each array ends holding its channel.
-/
import proofs.«112856_j19902878450221_2_alg».proof.Proof.Entry
import proofs.«112856_j19902878450221_2_alg».proof.Proof.Tile
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (m : (ℓ : Loc nD τ sig) → Buf (Elt Ideal) ℓ)

theorem origin : (![0, 0] : Fin 2 → Nat) = fun _ => 0 := funext fun a => by fin_cases a <;> rfl

/-! ## The block indices over the grid -/

/-- At every point: the activator and carry-mean windows sit at the output's row block, the weight window's row
    block and the bias window's column block are the output's column block, the two outputs move together, and the
    output's block indices stay below 8 and 4. -/
theorem block_indices : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = win0_4.index t (1 : Fin 2) ∧ win0_2.index t (1 : Fin 2) = 0
    ∧ win0_3.index t (0 : Fin 2) = 0 ∧ win0_3.index t (1 : Fin 2) = win0_4.index t (1 : Fin 2)
    ∧ win0_5.index t (0 : Fin 2) = win0_4.index t (0 : Fin 2) ∧ win0_5.index t (1 : Fin 2) = win0_4.index t (1 : Fin 2)
    ∧ win0_4.index t (0 : Fin 2) ≤ 7 ∧ win0_4.index t (1 : Fin 2) ≤ 3 :=
  (by decide +kernel : ∀ t : Fin grid0.N, _)

/-- Every block of the first output array is some point's. -/
theorem act_blocks_onto : ∀ (q0 : Fin 8) (q1 : Fin 4), ∃ t : Fin cfg0.N, win0_4.index t = ![q0.val, q1.val] :=
  (by decide +kernel : ∀ (q0 : Fin 8) (q1 : Fin 4), ∃ t : Fin grid0.N, win0_4.index t = ![q0.val, q1.val])

/-- Every block of the second output array is some point's. -/
theorem carry_blocks_onto : ∀ (q0 : Fin 8) (q1 : Fin 4), ∃ t : Fin cfg0.N, win0_5.index t = ![q0.val, q1.val] :=
  (by decide +kernel : ∀ (q0 : Fin 8) (q1 : Fin 4), ∃ t : Fin grid0.N, win0_5.index t = ![q0.val, q1.val])

/-! ## The input blocks at a point, entry by entry -/

/-- The activator block at a point: its entry `(p, k)` is `x[r, k, 0]` for the row `r` the output tile's row `p` is. -/
theorem activator_block (c : Dev nD) (t : Fin cfg0.N) (p : Fin 256) (k : Fin 4096) (r : Fin 2048)
    (hr : r.val = win0_4.index t (0 : Fin 2) * 256 + p.val) :
    iblk m c 0 t (ix2 p k) = m ((c : Thread nD τ).loc main_arg0) (ix3 r k (0 : Fin 2)) := by
  obtain ⟨e00, e01, -⟩ := block_indices t
  show V m c main_v1 (((cfg0.win 0).blk t).view.emb (ix2 p k)) = _
  refine Entry.activator_at m c _ r k ?_ ?_
  · show win0_0.index t (0 : Fin 2) * 256 + 1 * p.val = r.val; omega
  · show win0_0.index t (1 : Fin 2) * 4096 + 1 * k.val = k.val; omega

/-- The carry-mean block at a point: its entry `(p, 0)` is the mean of channel 1 of the row the tile's row `p` is. -/
theorem carrymean_block (c : Dev nD) (t : Fin cfg0.N) (p : Fin 256) (r : Fin 2048)
    (hr : r.val = win0_4.index t (0 : Fin 2) * 256 + p.val) :
    iblk m c 1 t (ix2 p (0 : Fin 1)) = chanMean (m ((c : Thread nD τ).loc main_arg0)) 1 r := by
  obtain ⟨-, -, e10, e11, -⟩ := block_indices t
  show V m c main_v7 (((cfg0.win 1).blk t).view.emb (ix2 p (0 : Fin 1))) = _
  refine Entry.carrymean_at m c _ r ?_
  show win0_1.index t (0 : Fin 2) * 256 + 1 * p.val = r.val; omega

/-- The weight block at a point: its entry `(q, k)` is `W[n, k]` for the column `n` the output tile's column `q` is. -/
theorem weights_block (c : Dev nD) (t : Fin cfg0.N) (q : Fin 1024) (k : Fin 4096) (n : Fin 4096)
    (hn : n.val = win0_4.index t (1 : Fin 2) * 1024 + q.val) :
    iblk m c 2 t (ix2 q k) = m ((c : Thread nD τ).loc main_arg1) (ix2 n k) := by
  obtain ⟨-, -, -, -, e20, e21, -⟩ := block_indices t
  show V m c main_v8 (((cfg0.win 2).blk t).view.emb (ix2 q k)) = _
  refine (Entry.weights_at m c _).trans (congrArg _ (funext fun a => Fin.ext ?_))
  match a with
  | ⟨0, _⟩ => show win0_2.index t (0 : Fin 2) * 1024 + 1 * q.val = n.val; omega
  | ⟨1, _⟩ => show win0_2.index t (1 : Fin 2) * 4096 + 1 * k.val = k.val; omega

/-- The bias block at a point: its entry `(0, q)` is `b[n]` for the column `n` the output tile's column `q` is. -/
theorem bias_block (c : Dev nD) (t : Fin cfg0.N) (q : Fin 1024) (n : Fin 4096)
    (hn : n.val = win0_4.index t (1 : Fin 2) * 1024 + q.val) :
    iblk m c 3 t (ix2 (0 : Fin 1) q) = m ((c : Thread nD τ).loc main_arg2) (ix1 n) := by
  obtain ⟨-, -, -, -, -, -, e30, e31, -⟩ := block_indices t
  show V m c main_v9 (((cfg0.win 3).blk t).view.emb (ix2 (0 : Fin 1) q)) = _
  refine Entry.bias_at m c _ n ?_
  show win0_3.index t (1 : Fin 2) * 1024 + 1 * q.val = n.val; omega

/-! ## The stored tiles at a point are tiles of the specified channels -/

/-- The first stored tile at `(p, q)` is the specified activator result at the row and column that entry is. -/
theorem act_point (c : Dev nD) (t : Fin cfg0.N) (p : Fin 256) (q : Fin 1024) (r : Fin 2048) (n : Fin 4096)
    (hr : r.val = win0_4.index t (0 : Fin 2) * 256 + 1 * p.val) (hn : n.val = win0_4.index t (1 : Fin 2) * 1024 + 1 * q.val) :
    k0_pay2 (iblk m c 0 t) (iblk m c 2 t) (iblk m c 3 t) (ix2 p q)
      = act (m ((c : Thread nD τ).loc main_arg0)) (m ((c : Thread nD τ).loc main_arg1)) (m ((c : Thread nD τ).loc main_arg2)) r n := by
  refine (Tile.pay2_apply (iblk m c 0 t) (iblk m c 2 t) (iblk m c 3 t) p q).trans ?_
  unfold act
  refine congrArg₂ max (congrArg₂ (· + ·) (Finset.sum_congr rfl fun k _ => ?_) ?_) rfl
  · exact congrArg₂ (· * ·) (activator_block m c t p k r (by omega)) (weights_block m c t q k n (by omega))
  · exact bias_block m c t q n (by omega)

/-- The second stored tile at `(p, q)` is the specified carry result of the row that entry is in. -/
theorem carry_point (c : Dev nD) (t : Fin cfg0.N) (p : Fin 256) (q : Fin 1024) (r : Fin 2048)
    (hr : r.val = win0_4.index t (0 : Fin 2) * 256 + 1 * p.val) :
    k0_pay3 (iblk m c 0 t) (iblk m c 1 t) (ix2 p q) = carry (m ((c : Thread nD τ).loc main_arg0)) r := by
  refine (Tile.pay3_apply (iblk m c 0 t) (iblk m c 1 t) p q).trans ?_
  unfold carry
  refine congrArg (fun z => halfW * z) (congrArg₂ (· + ·) ?_ (carrymean_block m c t p r (by omega)))
  unfold chanMean
  exact congrArg (fun s => Ideal.div s widthW) (Finset.sum_congr rfl fun k _ => activator_block m c t p k r (by omega))

/-! ## What a point writes back -/

/-- What point `t` writes back to the first output array is tile `t` of the specified activator channel. -/
theorem act_flushed (c : Dev nD) (t : Fin cfg0.N) :
    (dats m 0 c).flushed 4 t = ((cfg0.win 4).blk t).view.read (Elt Ideal)
      (actArr (m ((c : Thread nD τ).loc main_arg0)) (m ((c : Thread nD τ).loc main_arg1)) (m ((c : Thread nD τ).loc main_arg2))) := by
  show (cfg0.win 4).cut (grid0.coords t) ((dats m 0 c).after 4 t) = _
  rw [after0_4]
  unfold out0_4
  rw [View.canon_unit_zero origin]
  simp only [View.ld_unit_zero (S := S256x4096) origin, View.ld_unit_zero (S := S1024x4096) origin, View.ld_unit_zero (S := S1x1024) origin]
  funext j
  obtain ⟨p, q, rfl⟩ : ∃ (p : Fin 256) (q : Fin 1024), j = ix2 p q := ⟨j 0, j 1, eq_ix2 j⟩
  show k0_pay2 (iblk m c 0 t) (iblk m c 2 t) (iblk m c 3 t) (ix2 p q)
    = act _ _ _ ((((cfg0.win 4).blk t).view.emb (ix2 p q)) 0) ((((cfg0.win 4).blk t).view.emb (ix2 p q)) 1)
  exact act_point m c t p q _ _ rfl rfl

/-- What point `t` writes back to the second output array is tile `t` of the specified carry channel. -/
theorem carry_flushed (c : Dev nD) (t : Fin cfg0.N) :
    (dats m 0 c).flushed 5 t = ((cfg0.win 5).blk t).view.read (Elt Ideal) (carryArr (m ((c : Thread nD τ).loc main_arg0))) := by
  show (cfg0.win 5).cut (grid0.coords t) ((dats m 0 c).after 5 t) = _
  rw [after0_5]
  unfold out0_5
  rw [View.canon_unit_zero origin]
  simp only [View.ld_unit_zero (S := S256x4096) origin, View.ld_unit_zero (S := S256x1) origin]
  funext j
  obtain ⟨p, q, rfl⟩ : ∃ (p : Fin 256) (q : Fin 1024), j = ix2 p q := ⟨j 0, j 1, eq_ix2 j⟩
  obtain ⟨-, -, -, -, -, -, -, -, e50, -⟩ := block_indices t
  show k0_pay3 (iblk m c 0 t) (iblk m c 1 t) (ix2 p q) = carry _ ((((cfg0.win 5).blk t).view.emb (ix2 p q)) 0)
  refine carry_point m c t p q _ ?_
  show win0_5.index t (0 : Fin 2) * 256 + 1 * p.val = win0_4.index t (0 : Fin 2) * 256 + 1 * p.val
  rw [e50]

/-! ## The tiles cover the arrays -/

/-- An index of the first output array is in point `t`'s tile iff each coordinate is in the tile's range. -/
theorem mem_act_tile (t : Fin cfg0.N) (i : S2048x4096.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v10_0).slice (win0_4.rect t)).set ↔ _
  rw [View.set_slice_whole, Rect.mem_set_unit]
  exact Iff.rfl

/-- The same for the second output array. -/
theorem mem_carry_tile (t : Fin cfg0.N) (i : S2048x4096.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v10_1).slice (win0_5.rect t)).set ↔ _
  rw [View.set_slice_whole, Rect.mem_set_unit]
  exact Iff.rfl

/-- Every index of the first output array is in the tile of the point at row block `i₀ / 256`, column block `i₁ / 1024`. -/
theorem act_cover (i : S2048x4096.Idx) :
    ∃ t : Fin cfg0.N, (cfg0.win 4).flush t = true ∧ i ∈ ((cfg0.win 4).blk t).view.set := by
  have hi0 : (i 0).val < 2048 := (i 0).isLt
  have hi1 : (i 1).val < 4096 := (i 1).isLt
  obtain ⟨t, ht⟩ := act_blocks_onto ⟨(i 0).val / 256, by omega⟩ ⟨(i 1).val / 1024, by omega⟩
  have q0 : win0_4.index t (0 : Fin 2) = (i 0).val / 256 := congrFun ht 0
  have q1 : win0_4.index t (1 : Fin 2) = (i 1).val / 1024 := congrFun ht 1
  refine ⟨t, flush0_4 t, ?_⟩
  rw [mem_act_tile]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 1024 ≤ (i 1).val ∧ (i 1).val < win0_4.index t (1 : Fin 2) * 1024 + 1024; omega

/-- The same for the second output array. -/
theorem carry_cover (i : S2048x4096.Idx) :
    ∃ t : Fin cfg0.N, (cfg0.win 5).flush t = true ∧ i ∈ ((cfg0.win 5).blk t).view.set := by
  have hi0 : (i 0).val < 2048 := (i 0).isLt
  have hi1 : (i 1).val < 4096 := (i 1).isLt
  obtain ⟨t, ht⟩ := carry_blocks_onto ⟨(i 0).val / 256, by omega⟩ ⟨(i 1).val / 1024, by omega⟩
  have q0 : win0_5.index t (0 : Fin 2) = (i 0).val / 256 := congrFun ht 0
  have q1 : win0_5.index t (1 : Fin 2) = (i 1).val / 1024 := congrFun ht 1
  refine ⟨t, flush0_5 t, ?_⟩
  rw [mem_carry_tile]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

/-! ## The arrays after the region -/

/-- After the last point the first output array is the specified activator channel. -/
theorem act_final (c : Dev nD) :
    (dats m 0 c).arrAt 4 cfg0.N
      = actArr (m ((c : Thread nD τ).loc main_arg0)) (m ((c : Thread nD τ).loc main_arg1)) (m ((c : Thread nD τ).loc main_arg2)) :=
  (dats m 0 c).arrAt_eq_of_cover 4 _ (fun t _ => act_flushed m c t) act_cover

/-- After the last point the second output array is the specified carry channel. -/
theorem carry_final (c : Dev nD) :
    (dats m 0 c).arrAt 5 cfg0.N = carryArr (m ((c : Thread nD τ).loc main_arg0)) :=
  (dats m 0 c).arrAt_eq_of_cover 5 _ (fun t _ => carry_flushed m c t) carry_cover

end Cert.KernelIdeal.Blocks

end
-- ==== Proof.Whole.lean ====
/-
  The kernel's whole run: the result array is the stack of the two specified channels.

  The region leaves the two output arrays holding the specified activator and carry channels (each is covered by the
  tiles the 32 points write back). After the region the host adds a unit last axis to each and joins them along it —
  the same stacking the reference ends with — so the result is that stacking applied to the two channels. The
  argument arrays are written by nothing and end as they began.
-/
import proofs.«112856_j19902878450221_2_alg».proof.Proof.Blocks
import Idealize.ShloMosaic.Lib.StableHlo.Run

noncomputable section

namespace Cert.KernelIdeal.Whole

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.Spec

variable (m : (ℓ : Loc nD τ sig) → Buf (Elt Ideal) ℓ) (ρ : Dev nD → PrngReg)

/-- What the host operations after the region leave in the result array: the stack of the two output arrays as
    the region left them, that is, of the two specified channels. -/
theorem result_eq (c : Dev nD) :
    Pipeline.afterTail₀ cfgs (dats m) 0 (V0 m) [hostOps1] c main_v13
      = Cert.ReferenceIdeal.Stages.stack
          (actArr (m ((c : Thread nD τ).loc main_arg0)) (m ((c : Thread nD τ).loc main_arg1)) (m ((c : Thread nD τ).loc main_arg2)))
          (carryArr (m ((c : Thread nD τ).loc main_arg0))) := by
  unfold Pipeline.afterTail₀
  show StableHlo.after hostOps1 _ (Proc.devRef .tc main_v13) = _
  after_results
  have h4 := (Pipeline.withArrays_arr spec0 launch0.win.arr_inj c (V0 m c) (fun w => (dats m 0 c).arrAt w cfg0.N) 4).trans
    (Blocks.act_final m c)
  have h5 := (Pipeline.withArrays_arr spec0 launch0.win.arr_inj c (V0 m c) (fun w => (dats m 0 c).arrAt w cfg0.N) 5).trans
    (Blocks.carry_final m c)
  exact congrArg₂ Cert.ReferenceIdeal.Stages.stack h4 h5

/-- Every weakly fair execution of the idealized kernel's program terminates with the result array at the stack of the
    two specified channels of the argument arrays, and the argument arrays unchanged. -/
theorem run : θ_run defs (onTc (τ := τ) (main (F := Ideal))) ⟨m, fun _ => 0, ρ⟩ fun r => ∀ c : Dev nD,
      r.2.mem ((c : Thread nD τ).loc main_v13) = Cert.ReferenceIdeal.Stages.stack
          (actArr (m ((c : Thread nD τ).loc main_arg0)) (m ((c : Thread nD τ).loc main_arg1)) (m ((c : Thread nD τ).loc main_arg2)))
          (carryArr (m ((c : Thread nD τ).loc main_arg0)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨((h c).2 main_v13 (Pipeline.mem_restRefs_of main_v13 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Whole

end
-- ==== Proof.lean ====
/-
  A fused linear layer on a two-channel input, against its plain array-language reference, on the extended reals.

  The input `x` is `[2048, 4096, 2]`: per row an activator channel and a carry channel of 4096 features. The result is
  `[2048, 4096, 2]`: channel 0 is `relu (act · Wᵀ + b)`, channel 1 repeats along the output features the row's derived
  scalar, half the sum of the two channel means (`Cert.Spec`).

  The kernel tiles the `2048 × 4096` outputs into `256 × 1024` tiles over a `4 × 8` grid; per tile it multiplies a
  `256 × 4096` activator block (rounded to bf16) with a `1024 × 4096` weight block (rounded to bf16 before the region),
  adds the bias row and rectifies; and it averages the activator block's rows, adds the carry mean the host has already
  reduced to a column, halves, and repeats the value along the tile's columns. On the extended reals rounding is the
  identity, the tile product is the same sum over the 4096 features as the reference's contraction, and a sum started
  from the zero word is the plain sum; so each tile is a tile of the specified channel, the tiles cover the arrays, and
  both programs end by stacking the two channels in the same way. No law that needs finiteness is used: the
  precondition is never opened.

  `Proof/Spec` states the two channels; `Proof/RefStages` reads the reference's stages as them; `Proof/Tile` reads the
  two stored tiles entry by entry; `Proof/Entry` says what the windows' arrays hold when the region is entered;
  `Proof/Blocks` goes from tiles to arrays; `Proof/Whole` is the kernel's run with the stacking after the region.
-/
import proofs.«112856_j19902878450221_2_alg».proof.Defs
import proofs.«112856_j19902878450221_2_alg».proof.Proof.Gen.Kernel
import proofs.«112856_j19902878450221_2_alg».proof.Proof.Gen.Kernel.Skeleton
import proofs.«112856_j19902878450221_2_alg».proof.Proof.Gen.Kernel.Launch
import proofs.«112856_j19902878450221_2_alg».proof.Proof.Gen.Kernel.Points
import proofs.«112856_j19902878450221_2_alg».proof.Proof.Gen.Kernel.Frame
import proofs.«112856_j19902878450221_2_alg».proof.Proof.Gen.KernelIdeal
import proofs.«112856_j19902878450221_2_alg».proof.Proof.Gen.KernelIdeal.Skeleton
import proofs.«112856_j19902878450221_2_alg».proof.Proof.Gen.KernelIdeal.Launch
import proofs.«112856_j19902878450221_2_alg».proof.Proof.Gen.KernelIdeal.Points
import proofs.«112856_j19902878450221_2_alg».proof.Proof.Gen.KernelIdeal.Frame
import proofs.«112856_j19902878450221_2_alg».proof.Proof.Gen.ReferenceIdeal
import proofs.«112856_j19902878450221_2_alg».proof.Proof.Gen.Pre_finite_inputs
import proofs.«112856_j19902878450221_2_alg».proof.Proof.Gen.ReferenceIdeal.Run
import proofs.«112856_j19902878450221_2_alg».proof.Proof.Gen.ReferenceIdeal.Read
import proofs.«112856_j19902878450221_2_alg».proof.Proof.RefStages
import proofs.«112856_j19902878450221_2_alg».proof.Proof.Whole
import Idealize.ShloMosaic.Adequacy
import Idealize.ShloMosaic.Init

noncomputable section

namespace Cert.Proof

open Idealize.ShloMosaic Idealize.ShloMosaic.TcCoe Idealize.SL.Sem Cert.Spec

/-- The word-level kernel runs and leaves its arguments unchanged. -/
theorem frame_kernel : @Cert.frame_Kernel Cert.Kernel.Gen.facts Cert.Pre_finite_inputs.Gen.facts :=
  fun m ρ _ => Cert.Kernel.Gen.frame m ρ

/-- So does the idealized kernel. -/
theorem frame_kernelIdeal : @Cert.frame_KernelIdeal Cert.KernelIdeal.Gen.facts Cert.Pre_finite_inputs.Gen.facts :=
  fun m ρ _ => Cert.KernelIdeal.Gen.frame m ρ

/-- The reference has no kernel: its frame is its run with the result forgotten. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the stack of the two specified channels
    of those arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2.1, (hagree c).2.2]
  exact Cert.ReferenceIdeal.Stages.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
